-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S4096x64 : Shape := ⟨2, ![4096, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S16384x64 .f32) (main_arg1 : FVec F S4096x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S16384x64 : Shape := ⟨2, ![16384, 64]⟩
abbrev S4096x64 : Shape := ⟨2, ![4096, 64]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S2048x64 : Shape := ⟨2, ![2048, 64]⟩
abbrev S1024x64 : Shape := ⟨2, ![1024, 64]⟩
abbrev S2048x1 : Shape := ⟨2, ![2048, 1]⟩
abbrev S1x1024 : Shape := ⟨2, ![1, 1024]⟩
abbrev S2048x1024 : Shape := ⟨2, ![2048, 1024]⟩

abbrev nBuf : Space → Nat
  | .hbm => 13
  | .vmem => 10
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S16384x64, .bf16⟩
  | .hbm, ⟨3, _⟩ => ⟨S4096x64, .bf16⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S4096x64, .f32⟩
  | .hbm, ⟨9, _⟩ => ⟨S_, .f32⟩
  | .hbm, ⟨10, _⟩ => ⟨S4096, .f32⟩
  | .hbm, ⟨11, _⟩ => ⟨S1x4096, .f32⟩
  | .hbm, ⟨12, _⟩ => ⟨S16384x4096, .f32⟩
  | .local _ .vmem, ⟨0, _⟩ => ⟨S2048x64, .bf16⟩
  | .local _ .vmem, ⟨1, _⟩ => ⟨S2048x64, .bf16⟩
  | .local _ .vmem, ⟨2, _⟩ => ⟨S1024x64, .bf16⟩
  | .local _ .vmem, ⟨3, _⟩ => ⟨S1024x64, .bf16⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S4096x64_S4096_d1 : S4096x64.ReducesTo [1] S4096
  bcast_S4096_S1x4096_1 : S4096.BroadcastsInDim S1x4096 (![1] : Fin 1 → Fin S1x4096.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .bf16 = 32 ∨ (Rect.block (s := S16384x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .bf16 = 32 ∨ (Rect.block (s := S4096x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x4096.size a
  hwx0_4 : ∀ i : grid0.Coords, EltTy.bits .f32 = 32 ∨ (Rect.block (s := S16384x4096) S2048x1024.size (cc0_transform_4 i) (hinb0_4 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S4096x64 : Shape := ⟨2, ![4096, 64]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x64, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S4096x64_S4096_d1 : S4096x64.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x64_S4096x64_S16384x4096_1_1_0_0_n_n_wf : DotDims.WF S16384x64 S4096x64 S16384x4096 [1] [1] [0] [0] [] []

variable [Facts₀]

def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf

class Facts : Prop extends Facts₀ where

variable [Facts]
-- ==== Proof.GeluDistance.lean ====
/-
  The function both programs compute: for `x : 16384 × 64` and `w : 4096 × 64`, the `16384 × 4096` array whose entry
  `(b, t)` is the tanh form of GELU of the Euclidean distance between row `b` of `x` and row `t` of `w`, the distance taken
  through the expansion `‖x_b‖² + ‖w_t‖² − 2·⟨x_b, w_t⟩` clamped below at zero before the square root.

  Everything is read on the extended reals. The float words the programs spell (2, 0, 0.044715, the rounded √(2/π), 1, ½)
  are kept as the words they are: both programs spell the same ones, so their values are never needed. The one place where
  the two programs group an expression differently is the cube of the distance — `d·(d·d)` against `(d·d)·d` — and on the
  extended reals multiplication is commutative, so the two are equal with no finiteness assumed (`cube_comm`).
-/
import Idealize.ShloMosaic.PureOps.Ideal
import Idealize.ShloMosaic.Lib.ValueIdx

noncomputable section

open scoped BigOperators

namespace Cert.GeluDistance

open Idealize.ShloMosaic Idealize.ShloMosaic.ValueIdx

/-- The tanh form of GELU at an extended real `d`: `d · (½ · (1 + tanh (c₁ · (d + c₀ · d³))))` with `c₀` the float 0.044715,
    `c₁` the float nearest √(2/π), and the cube grouped as `d · (d · d)`. -/
def gelu (d : EReal) : EReal :=
  d * (Ideal.ofBits .f32 0x3F000000#32 * (Ideal.ofBits .f32 0x3F800000#32
    + Ideal.tanh (Ideal.ofBits .f32 0x3F4C422A#32 * (d + Ideal.ofBits .f32 0x3D372713#32 * (d * (d * d))))))

/-- The cube grouped the other way is the same number: multiplication on the extended reals is commutative. -/
theorem cube_comm (d : EReal) : d * d * d = d * (d * d) := mul_comm (d * d) d

/-- The same GELU with the cube grouped as `(d · d) · d`. -/
theorem gelu_cube_left (d : EReal) :
    d * (Ideal.ofBits .f32 0x3F000000#32 * (Ideal.ofBits .f32 0x3F800000#32
      + Ideal.tanh (Ideal.ofBits .f32 0x3F4C422A#32 * (d + Ideal.ofBits .f32 0x3D372713#32 * (d * d * d))))) = gelu d := by
  rw [cube_comm]; rfl

/-- The distance from the two squared norms `sx`, `sw` and the inner product `xw`:
    `√(max (sx + sw − 2 · xw) 0)`. -/
def dist (sx sw xw : EReal) : EReal :=
  Ideal.sqrt (max (sx + sw - Ideal.ofBits .f32 0x40000000#32 * xw) (Ideal.ofBits .f32 0x00000000#32))

/-- The squared norm of row `r` of an `n × 64` array, summed from the float zero. -/
def sumSq {n : Nat} (x : (⟨2, ![n, 64]⟩ : Shape).Idx → EReal) (r : Fin n) : EReal :=
  Ideal.ofBits .f32 0x00000000#32 + ∑ k : Fin 64, x (ix2 r k) * x (ix2 r k)

/-- The inner product of row `p` of `x` with row `q` of `w`. -/
def rowDot {a b : Nat} (x : (⟨2, ![a, 64]⟩ : Shape).Idx → EReal) (w : (⟨2, ![b, 64]⟩ : Shape).Idx → EReal)
    (p : Fin a) (q : Fin b) : EReal :=
  ∑ k : Fin 64, x (ix2 p k) * w (ix2 q k)

/-- Entry `(p, q)`: GELU of the distance between row `p` of `x` and row `q` of `w`. -/
def entry (x : (⟨2, ![16384, 64]⟩ : Shape).Idx → EReal) (w : (⟨2, ![4096, 64]⟩ : Shape).Idx → EReal)
    (p : Fin 16384) (q : Fin 4096) : EReal :=
  gelu (dist (sumSq x p) (sumSq w q) (rowDot x w p q))

/-- The whole result array. -/
def G (x : (⟨2, ![16384, 64]⟩ : Shape).Idx → EReal) (w : (⟨2, ![4096, 64]⟩ : Shape).Idx → EReal) :
    (⟨2, ![16384, 4096]⟩ : Shape).Idx → EReal :=
  fun i => entry x w (i 0) (i 1)

theorem G_apply (x : (⟨2, ![16384, 64]⟩ : Shape).Idx → EReal) (w : (⟨2, ![4096, 64]⟩ : Shape).Idx → EReal)
    (p : Fin 16384) (q : Fin 4096) : G x w (ix2 p q) = entry x w p q := rfl

end Cert.GeluDistance

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.BodyValue.lean ====
/-
  The kernel body's one stored value, read at an entry of the `2048 × 1024` output block.

  The body loads a `2048 × 64` block of `x`, a `1024 × 64` block of `w`, the `2048 × 1` column of squared norms of those rows of
  `x` and the `1 × 1024` row of squared norms of those rows of `w`. It multiplies the two feature blocks contracting the feature
  axis of both into a zero accumulator, spreads the column across the columns and the row down the rows, and then works
  entry by entry: `√(max (sx + sw − 2·xw) 0)`, and the tanh form of GELU of that with the cube grouped as `d·(d·d)` — the
  specification's own grouping. So at entry `(p, q)` the stored value is `gelu (dist …)` of the column's entry of row `p`, the
  row's entry of column `q`, and the inner product of row `p` of the first block with row `q` of the second.
-/
import proofs.«150686_j34325378630130_2_alg».proof.Proof.Gen.KernelIdeal.Skeleton
import proofs.«150686_j34325378630130_2_alg».proof.Proof.GeluDistance
import proofs.«150686_j34325378630130_2_alg».proof.Proof.LibDotRows
import Idealize.ShloMosaic.Lib.Pipeline.Value
import Idealize.ShloMosaic.Lib.ValueLayout

noncomputable section

open scoped BigOperators

namespace Cert.KernelIdeal.BodyValue

open Cert.KernelIdeal Cert.KernelIdeal.Gen Idealize.ShloMosaic Idealize.ShloMosaic.ValueIdx Cert.GeluDistance

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable (x0 : Vec Ideal S2048x64 .bf16) (x1 : Vec Ideal S1024x64 .bf16) (x2 : Vec Ideal S2048x1 .f32) (x3 : Vec Ideal S1x1024 .f32)

/-- Entry by entry the stored value is GELU of the distance formed from the spread column, the spread row and the product. -/
theorem payload_pointwise (j : S2048x1024.Idx) :
    k0_pay1 (F := Ideal) x0 x1 x2 x3 j
      = gelu (dist
          (broadcastTo S2048x1024 (shapeCast S2048x1 x2 shapeCasts_S2048x1_S2048x1) broadcasts_S2048x1_S2048x1024 j)
          (broadcastTo S2048x1024 (shapeCast S1x1024 x3 shapeCasts_S1x1024_S1x1024) broadcasts_S1x1024_S2048x1024 j)
          (matmul (φ₁ := .bf16) (φ₂ := .bf16) dot_S2048x64_S1024x64_S2048x1024_1_1_0_0_n_n none (shapeCast S2048x64 x0 shapeCasts_S2048x64_S2048x64)
            (shapeCast S1024x64 x1 shapeCasts_S1024x64_S1024x64) (constant (F := Ideal) S2048x1024 .f32 0x00000000#32) j)) := rfl

/-- The product into the zero accumulator at `(p, q)`: the inner product of row `p` of the first block with row `q` of the
    second. -/
theorem product_apply (p : Fin 2048) (q : Fin 1024) :
    matmul (φ₁ := .bf16) (φ₂ := .bf16) dot_S2048x64_S1024x64_S2048x1024_1_1_0_0_n_n none (shapeCast S2048x64 x0 shapeCasts_S2048x64_S2048x64)
        (shapeCast S1024x64 x1 shapeCasts_S1024x64_S1024x64) (constant (F := Ideal) S2048x1024 .f32 0x00000000#32) (ix2 p q)
      = ∑ k : Fin 64, x0 (ix2 p k) * x1 (ix2 q k) := by
  rw [shapeCast_self, shapeCast_self]
  exact Cert.Lib.DotRows.matmul_rows_apply (φ₁ := .bf16) (φ₂ := .bf16) dot_S2048x64_S1024x64_S2048x1024_1_1_0_0_n_n rfl none x0 x1 p q

/-- The column of row norms spread across the columns, at `(p, q)`: its entry of row `p`. -/
theorem column_apply (p : Fin 2048) (q : Fin 1024) :
    broadcastTo S2048x1024 (shapeCast S2048x1 x2 shapeCasts_S2048x1_S2048x1) broadcasts_S2048x1_S2048x1024 (ix2 p q)
      = x2 (ix2 p (0 : Fin 1)) := by
  rw [shapeCast_self]
  exact broadcastTo_a1_ab_apply x2 broadcasts_S2048x1_S2048x1024 p q

/-- The row of `w` norms spread down the rows, at `(p, q)`: its entry of column `q`. -/
theorem row_apply (p : Fin 2048) (q : Fin 1024) :
    broadcastTo S2048x1024 (shapeCast S1x1024 x3 shapeCasts_S1x1024_S1x1024) broadcasts_S1x1024_S2048x1024 (ix2 p q)
      = x3 (ix2 (0 : Fin 1) q) := by
  rw [shapeCast_self]
  exact broadcastTo_1b_ab_apply x3 broadcasts_S1x1024_S2048x1024 p q

/-- THE STORED VALUE AT `(p, q)`. -/
theorem payload_apply (p : Fin 2048) (q : Fin 1024) :
    k0_pay1 (F := Ideal) x0 x1 x2 x3 (ix2 p q)
      = gelu (dist (x2 (ix2 p (0 : Fin 1))) (x3 (ix2 (0 : Fin 1) q)) (∑ k : Fin 64, x0 (ix2 p k) * x1 (ix2 q k))) := by
  rw [payload_pointwise, column_apply, row_apply, product_apply]

/-- THE STORED VALUE AGAINST THE WHOLE ARRAYS. If the two feature blocks hold rows `P` of `x` and `Q` of `w` at their rows `p`
    and `q`, and the norm column and row hold the squared norms of those rows, the stored value at `(p, q)` is the
    specification's entry `(P, Q)`. -/
theorem block_entry (a0 : (⟨2, ![16384, 64]⟩ : Shape).Idx → EReal) (a1 : (⟨2, ![4096, 64]⟩ : Shape).Idx → EReal)
    (P : Fin 16384) (Q : Fin 4096) (p : Fin 2048) (q : Fin 1024)
    (h0 : ∀ k : Fin 64, x0 (ix2 p k) = a0 (ix2 P k))
    (h1 : ∀ k : Fin 64, x1 (ix2 q k) = a1 (ix2 Q k))
    (h2 : x2 (ix2 p (0 : Fin 1)) = sumSq a0 P)
    (h3 : x3 (ix2 (0 : Fin 1) q) = sumSq a1 Q) :
    k0_pay1 (F := Ideal) x0 x1 x2 x3 (ix2 p q) = entry a0 a1 P Q := by
  rw [payload_apply, h2, h3]
  unfold entry rowDot
  exact congrArg (fun s => gelu (dist (sumSq a0 P) (sumSq a1 Q) s)) (Finset.sum_congr rfl fun k _ => by rw [h0 k, h1 k])

end Cert.KernelIdeal.BodyValue

end
-- ==== Proof.RegionArrays.lean ====
/-
  What the kernel's four input windows read from: the arrays the host operations in front of the call leave.

  The two feature arrays are `x` and `w` rounded to a narrower float format, and on the extended reals a change of format is the
  identity: they ARE `x` and `w`. The other two are the squared norms of the rows of `x`, laid down a `16384 × 1` column, and
  of the rows of `w`, laid along a `1 × 4096` row: each a sum over the 64 features from the float zero. Read at `(r, 0)` and at
  `(0, s)` they are the specification's `sumSq` of row `r` of `x` and of row `s` of `w`.
-/
import proofs.«150686_j34325378630130_2_alg».proof.Proof.Gen.KernelIdeal.Frame
import proofs.«150686_j34325378630130_2_alg».proof.Proof.GeluDistance
import Idealize.ShloMosaic.Lib.StableHlo.Run
import Idealize.ShloMosaic.Lib.Pipeline.Value
import Idealize.ShloMosaic.Lib.IdealHost
import Idealize.ShloMosaic.PureOps.Ideal.Laws

noncomputable section

open scoped BigOperators

namespace Cert.KernelIdeal.RegionArrays

open Cert.KernelIdeal Cert.KernelIdeal.Gen Idealize.ShloMosaic Idealize.ShloMosaic.TcCoe Idealize.SL.Sem
open Idealize.ShloMosaic.ValueIdx Cert.GeluDistance

/-! ## The two norm arrays, as functions of the feature arrays -/

/-- The column of row norms at `(r, 0)`: the squared norm of row `r`. -/
theorem normColumn_apply (x : FVec Ideal S16384x64 .f32) (r : Fin 16384) :
    broadcastInDim S16384x1 ![0] bcast_S16384_S16384x1_0
        (Host.reduceAdd (mulf x x) (constant (F := Ideal) S_ .f32 0x00000000#32) reducesTo_S16384x64_S16384_d1 h_S_)
        (ix2 r (0 : Fin 1))
      = sumSq x r := by
  rw [broadcastInDim_apply ![0] bcast_S16384_S16384x1_0 _ (ix2 r (0 : Fin 1)) (ix1 r) (fun a => match a with
    | ⟨0, _⟩ => by show r.val = if (16384 : Nat) = 1 then 0 else r.val; rw [if_neg (by decide)])]
  rw [hostReduceAdd_apply, Ideal.hostReduceAdd_single reducesTo_S16384x64_S16384_d1 (by decide)]
  show Ideal.ofBits .f32 0x00000000#32 + _ = _
  unfold sumSq
  refine congrArg (_ + ·) (Finset.sum_congr rfl fun k _ => ?_)
  exact congrArg (mulf x x) (funext fun a => Fin.ext (by match a with | ⟨0, _⟩ => rfl | ⟨1, _⟩ => rfl))

/-- The row of `w` norms at `(0, s)`: the squared norm of row `s`. -/
theorem normRow_apply (w : FVec Ideal S4096x64 .f32) (s : Fin 4096) :
    broadcastInDim S1x4096 ![1] bcast_S4096_S1x4096_1
        (Host.reduceAdd (mulf w w) (constant (F := Ideal) S_ .f32 0x00000000#32) reducesTo_S4096x64_S4096_d1 h_S_)
        (ix2 (0 : Fin 1) s)
      = sumSq w s := by
  rw [broadcastInDim_apply ![1] bcast_S4096_S1x4096_1 _ (ix2 (0 : Fin 1) s) (ix1 s) (fun a => match a with
    | ⟨0, _⟩ => by show s.val = if (4096 : Nat) = 1 then 0 else s.val; rw [if_neg (by decide)])]
  rw [hostReduceAdd_apply, Ideal.hostReduceAdd_single reducesTo_S4096x64_S4096_d1 (by decide)]
  show Ideal.ofBits .f32 0x00000000#32 + _ = _
  unfold sumSq
  refine congrArg (_ + ·) (Finset.sum_congr rfl fun k _ => ?_)
  exact congrArg (mulf w w) (funext fun a => Fin.ext (by match a with | ⟨0, _⟩ => rfl | ⟨1, _⟩ => rfl))

/-! ## The arrays as the region finds them -/

variable (m : (ℓ : Loc nD τ sig) → Buf (Elt Ideal) ℓ)

/-- The first window's array is `x`. -/
theorem V_x (c : Dev nD) : (V m c main_v0 : S16384x64.Idx → EReal) = m ((c : Thread nD τ).loc main_arg0) := by
  dsimp only [Gen.V, Gen.hostOps0]; after_results; rfl

/-- The second window's array is `w`. -/
theorem V_w (c : Dev nD) : (V m c main_v1 : S4096x64.Idx → EReal) = m ((c : Thread nD τ).loc main_arg1) := by
  dsimp only [Gen.V, Gen.hostOps0]; after_results; rfl

/-- The third window's array at `(r, 0)`: the squared norm of row `r` of `x`. -/
theorem V_normColumn_apply (c : Dev nD) (r : Fin 16384) :
    (V m c main_v4 : S16384x1.Idx → EReal) (ix2 r (0 : Fin 1)) = sumSq (n := 16384) (m ((c : Thread nD τ).loc main_arg0)) r := by
  have e : (V m c main_v4 : S16384x1.Idx → EReal)
      = broadcastInDim S16384x1 ![0] bcast_S16384_S16384x1_0
          (Host.reduceAdd (mulf (F := Ideal) (s := S16384x64) (φ := .f32) (m ((c : Thread nD τ).loc main_arg0)) (m ((c : Thread nD τ).loc main_arg0)))
            (constant (F := Ideal) S_ .f32 0x00000000#32) reducesTo_S16384x64_S16384_d1 h_S_) := by
    dsimp only [Gen.V, Gen.hostOps0]; after_results
  exact (congrFun e _).trans (normColumn_apply _ r)

/-- The fourth window's array at `(0, s)`: the squared norm of row `s` of `w`. -/
theorem V_normRow_apply (c : Dev nD) (s : Fin 4096) :
    (V m c main_v7 : S1x4096.Idx → EReal) (ix2 (0 : Fin 1) s) = sumSq (n := 4096) (m ((c : Thread nD τ).loc main_arg1)) s := by
  have e : (V m c main_v7 : S1x4096.Idx → EReal)
      = broadcastInDim S1x4096 ![1] bcast_S4096_S1x4096_1
          (Host.reduceAdd (mulf (F := Ideal) (s := S4096x64) (φ := .f32) (m ((c : Thread nD τ).loc main_arg1)) (m ((c : Thread nD τ).loc main_arg1)))
            (constant (F := Ideal) S_ .f32 0x00000000#32) reducesTo_S4096x64_S4096_d1 h_S_) := by
    dsimp only [Gen.V, Gen.hostOps0]; after_results
  exact (congrFun e _).trans (normRow_apply _ s)

end Cert.KernelIdeal.RegionArrays

end
-- ==== Proof.BlockValue.lean ====
/-
  From blocks to the whole array: after the kernel's run its output array holds the specification's `G` of `x` and `w`.

  The grid is `8 × 4`. At point `(i, j)` the body sees rows `2048·i …` of `x` and of the row-norm column, rows `1024·j …` of `w`
  and columns `1024·j …` of the `w`-norm row, and writes block `(i, j)` of the `16384 × 4096` output. So the value it stores at
  `(p, q)` of the block is the specification's entry at row `2048·i + p`, column `1024·j + q` — exactly the array index the
  block's `(p, q)` lands on. The `8 × 4` blocks tile the output: index `(r, s)` lies in the block of the point with block
  indices `(r / 2048, s / 1024)`. Hence the whole array is `G`.
-/
import proofs.«150686_j34325378630130_2_alg».proof.Proof.Gen.KernelIdeal.Value
import proofs.«150686_j34325378630130_2_alg».proof.Proof.BodyValue
import proofs.«150686_j34325378630130_2_alg».proof.Proof.RegionArrays

noncomputable section

namespace Cert.KernelIdeal.BlockValue

open Cert.KernelIdeal Cert.KernelIdeal.Gen Idealize.ShloMosaic Idealize.ShloMosaic.TcCoe Idealize.SL.Sem
open Idealize.ShloMosaic.ValueIdx Cert.GeluDistance
open Idealize.ShloMosaic.Pipeline (Dat)

variable (m : (ℓ : Loc nD τ sig) → Buf (Elt Ideal) ℓ) (ρ : Dev nD → PrngReg)

/-- Every rectangle the body loads or stores through starts at the block's origin. -/
theorem origin : (![0, 0] : Fin 2 → Nat) = fun _ => 0 := funext fun a => by fin_cases a <;> rfl

/-- The index maps, over the 32 grid points: the `x` block and the row-norm column move with the output's row block, the
    `w` block and the `w`-norm row with its column block, their other block index is zero, and the output's block indices stay
    inside `8 × 4`. -/
theorem index_maps : ∀ t : Fin cfg0.N,
      win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every one of the `8 × 4` output blocks is some point's. -/
theorem every_block : ∀ (b0 : Fin 8) (b1 : Fin 4), ∃ t : Fin cfg0.N, win0_4.index t = ![b0.val, b1.val] :=
  (by decide +kernel : ∀ (b0 : Fin 8) (b1 : Fin 4), ∃ t : Fin grid0.N, win0_4.index t = ![b0.val, b1.val])

/-- WHAT POINT `t` WRITES BACK is block `t` of `G` of the two argument arrays. -/
theorem flushed_eq (c : Dev nD) (t : Fin cfg0.N) :
    (dats m 0 c).flushed 4 t
      = ((cfg0.win 4).blk t).view.read (Elt Ideal)
          (G (m ((c : Thread nD τ).loc main_arg0)) (m ((c : Thread nD τ).loc main_arg1))) := by
  rw [Value.flushed4]
  unfold out0_4
  rw [View.canon_unit_zero origin]
  simp only [View.ld_unit_zero (S := S2048x64) origin, View.ld_unit_zero (S := S1024x64) origin,
    View.ld_unit_zero (S := S2048x1) origin, View.ld_unit_zero (S := S1x1024) origin]
  obtain ⟨e00, e01, e10, e11, e20, e21, e30, e31, b0, b1⟩ := index_maps t
  funext j
  obtain ⟨p, q, rfl⟩ : ∃ (p : Fin 2048) (q : Fin 1024), j = ix2 p q := ⟨j 0, j 1, eq_ix2 j⟩
  have hp : p.val < 2048 := p.isLt
  have hq : q.val < 1024 := q.isLt
  have hP : win0_4.index t (0 : Fin 2) * 2048 + p.val < 16384 := by omega
  have hQ : win0_4.index t (1 : Fin 2) * 1024 + q.val < 4096 := by omega
  -- the array index the block's `(p, q)` lands on
  have hI : ((cfg0.win 4).blk t).view.emb (ix2 p q)
      = ix2 (⟨win0_4.index t (0 : Fin 2) * 2048 + p.val, hP⟩ : Fin 16384) (⟨win0_4.index t (1 : Fin 2) * 1024 + q.val, hQ⟩ : Fin 4096) :=
    funext fun a => Fin.ext (by
      match a with
      | ⟨0, _⟩ => show win0_4.index t (0 : Fin 2) * 2048 + 1 * p.val = win0_4.index t (0 : Fin 2) * 2048 + p.val; omega
      | ⟨1, _⟩ => show win0_4.index t (1 : Fin 2) * 1024 + 1 * q.val = win0_4.index t (1 : Fin 2) * 1024 + q.val; omega)
  show k0_pay1 (F := Ideal) (iblk m c 0 t) (iblk m c 1 t) (iblk m c 2 t) (iblk m c 3 t) (ix2 p q)
      = G (m ((c : Thread nD τ).loc main_arg0)) (m ((c : Thread nD τ).loc main_arg1)) (((cfg0.win 4).blk t).view.emb (ix2 p q))
  rw [hI, G_apply]
  refine BodyValue.block_entry (iblk m c 0 t) (iblk m c 1 t) (iblk m c 2 t) (iblk m c 3 t)
    (m ((c : Thread nD τ).loc main_arg0)) (m ((c : Thread nD τ).loc main_arg1))
    ⟨win0_4.index t (0 : Fin 2) * 2048 + p.val, hP⟩ ⟨win0_4.index t (1 : Fin 2) * 1024 + q.val, hQ⟩ p q ?_ ?_ ?_ ?_
  · -- row `p` of the `x` block is row `2048·i + p` of `x`
    intro k
    show (V m c main_v0 : S16384x64.Idx → EReal) (((cfg0.win 0).blk t).view.emb (ix2 p k)) = _
    refine (congrFun (RegionArrays.V_x m c) _).trans (congrArg _ (funext fun a => Fin.ext ?_))
    match a with
    | ⟨0, _⟩ => show win0_0.index t (0 : Fin 2) * 2048 + 1 * p.val = win0_4.index t (0 : Fin 2) * 2048 + p.val; omega
    | ⟨1, _⟩ => show win0_0.index t (1 : Fin 2) * 64 + 1 * k.val = k.val; omega
  · -- row `q` of the `w` block is row `1024·j + q` of `w`
    intro k
    show (V m c main_v1 : S4096x64.Idx → EReal) (((cfg0.win 1).blk t).view.emb (ix2 q k)) = _
    refine (congrFun (RegionArrays.V_w m c) _).trans (congrArg _ (funext fun a => Fin.ext ?_))
    match a with
    | ⟨0, _⟩ => show win0_1.index t (0 : Fin 2) * 1024 + 1 * q.val = win0_4.index t (1 : Fin 2) * 1024 + q.val; omega
    | ⟨1, _⟩ => show win0_1.index t (1 : Fin 2) * 64 + 1 * k.val = k.val; omega
  · -- entry `p` of the norm column's block is the squared norm of row `2048·i + p` of `x`
    show (V m c main_v4 : S16384x1.Idx → EReal) (((cfg0.win 2).blk t).view.emb (ix2 p (0 : Fin 1))) = _
    have e : ((cfg0.win 2).blk t).view.emb (ix2 p (0 : Fin 1))
        = ix2 (⟨win0_4.index t (0 : Fin 2) * 2048 + p.val, hP⟩ : Fin 16384) (0 : Fin 1) :=
      funext fun a => Fin.ext (by
        match a with
        | ⟨0, _⟩ => show win0_2.index t (0 : Fin 2) * 2048 + 1 * p.val = win0_4.index t (0 : Fin 2) * 2048 + p.val; omega
        | ⟨1, _⟩ => show win0_2.index t (1 : Fin 2) * 1 + 1 * 0 = 0; omega)
    rw [e]
    exact RegionArrays.V_normColumn_apply m c _
  · -- entry `q` of the norm row's block is the squared norm of row `1024·j + q` of `w`
    show (V m c main_v7 : S1x4096.Idx → EReal) (((cfg0.win 3).blk t).view.emb (ix2 (0 : Fin 1) q)) = _
    have e : ((cfg0.win 3).blk t).view.emb (ix2 (0 : Fin 1) q)
        = ix2 (0 : Fin 1) (⟨win0_4.index t (1 : Fin 2) * 1024 + q.val, hQ⟩ : Fin 4096) :=
      funext fun a => Fin.ext (by
        match a with
        | ⟨0, _⟩ => show win0_3.index t (0 : Fin 2) * 1 + 1 * 0 = 0; omega
        | ⟨1, _⟩ => show win0_3.index t (1 : Fin 2) * 1024 + 1 * q.val = win0_4.index t (1 : Fin 2) * 1024 + q.val; omega)
    rw [e]
    exact RegionArrays.V_normRow_apply m c _

/-- An index of the output array is in point `t`'s block iff each coordinate is in the block's range on its axis. -/
theorem mem_block (t : Fin cfg0.N) (i : S16384x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v8).slice (win0_4.rect t)).set ↔ _
  rw [View.set_slice_whole, Rect.mem_set_unit]
  exact Iff.rfl

/-- The blocks tile the output: every index is in the block of the point with block indices `(i₀ / 2048, i₁ / 1024)`. -/
theorem covered (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := every_block ⟨(i 0).val / 2048, by omega⟩ ⟨(i 1).val / 1024, by omega⟩
  have q0 : win0_4.index t (0 : Fin 2) = (i 0).val / 2048 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1024 ≤ (i 1).val ∧ (i 1).val < win0_4.index t (1 : Fin 2) * 1024 + 1024; omega

/-- THE OUTPUT ARRAY after the run is `G` of the two argument arrays. -/
theorem final (c : Dev nD) :
    (dats m 0 c).arrAt 4 cfg0.N = G (m ((c : Thread nD τ).loc main_arg0)) (m ((c : Thread nD τ).loc main_arg1)) :=
  (dats m 0 c).arrAt_eq_of_cover 4 (G (m ((c : Thread nD τ).loc main_arg0)) (m ((c : Thread nD τ).loc main_arg1)))
    (fun t _ => flushed_eq m c t) covered

/-- The kernel's run: every weakly fair execution terminates with the result array at `G` of the arguments, the arguments
    unchanged. -/
theorem run : θ_run defs (onTc (τ := τ) (main (F := Ideal))) ⟨m, fun _ => 0, ρ⟩ fun r => ∀ c : Dev nD,
      r.2.mem ((c : Thread nD τ).loc main_v8) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.BlockValue

end
-- ==== Proof.ReferenceValue.lean ====
/-
  The reference program's result, read one operation at a time, is the specification's array `G`.

  The reference forms the two squared norms as sums over the 64 features from the float zero, lays the row norms down a
  column and the `w` norms along a row, broadcasts both to `16384 × 4096`, takes the product of `x` with `w` contracting the
  feature axis of both, and then works entry by entry: `√(max (sx + sw − 2·xw) 0)` and the tanh form of GELU of that. Read at
  entry `(p, q)` each broadcast picks out row `p`'s or row `q`'s norm, and the product is the inner product of the two rows.
  The only difference from the specification's spelling is the cube of the distance, which the reference groups as
  `(d·d)·d`; `GeluDistance.gelu_cube_left` is that step.
-/
import proofs.«150686_j34325378630130_2_alg».proof.Proof.Gen.ReferenceIdeal.Read
import proofs.«150686_j34325378630130_2_alg».proof.Proof.GeluDistance

noncomputable section

open scoped BigOperators

namespace Cert.ReferenceIdeal.RefValue

open Cert.ReferenceIdeal Cert.ReferenceIdeal.Read Idealize.ShloMosaic Idealize.ShloMosaic.ValueIdx Cert.GeluDistance

variable (x : (⟨2, ![16384, 64]⟩ : Shape).Idx → EReal) (w : (⟨2, ![4096, 64]⟩ : Shape).Idx → EReal)

/-- The row norms, laid down a column and broadcast across the columns, read at `(p, q)`: the squared norm of row `p` of `x`. -/
theorem rowNorms_apply (p : Fin 16384) (q : Fin 4096) : val_main_v7 (F := Ideal) x (ix2 p q) = sumSq x p := by
  rw [val_main_v7_apply, val_main_v2_apply, val_main_v1_apply]
  show Ideal.ofBits .f32 0x00000000#32
      + ∑ k : Fin 64, val_main_v0 (F := Ideal) x (idx_main_v1 (idx_main_v2 (idx_main_v7 (ix2 p q))) k) = _
  unfold sumSq
  refine congrArg (_ + ·) (Finset.sum_congr rfl fun k _ => ?_)
  have e : idx_main_v1 (idx_main_v2 (idx_main_v7 (ix2 p q))) k = ix2 p k :=
    funext fun a => Fin.ext (by match a with | ⟨0, _⟩ => rfl | ⟨1, _⟩ => rfl)
  rw [e]
  rfl

/-- The `w` norms, laid along a row and broadcast down the rows, read at `(p, q)`: the squared norm of row `q` of `w`. -/
theorem colNorms_apply (p : Fin 16384) (q : Fin 4096) : val_main_v8 (F := Ideal) w (ix2 p q) = sumSq w q := by
  rw [val_main_v8_apply, val_main_v5_apply, val_main_v4_apply]
  show Ideal.ofBits .f32 0x00000000#32
      + ∑ k : Fin 64, val_main_v3 (F := Ideal) w (idx_main_v4 (idx_main_v5 (idx_main_v8 (ix2 p q))) k) = _
  unfold sumSq
  refine congrArg (_ + ·) (Finset.sum_congr rfl fun k _ => ?_)
  have e : idx_main_v4 (idx_main_v5 (idx_main_v8 (ix2 p q))) k = ix2 q k :=
    funext fun a => Fin.ext (by match a with | ⟨0, _⟩ => rfl | ⟨1, _⟩ => rfl)
  rw [e]
  rfl

/-- The product contracting the feature axis of both operands, read at `(p, q)`: the inner product of row `p` of `x` with
    row `q` of `w`. -/
theorem products_apply (p : Fin 16384) (q : Fin 4096) : val_main_v6 (F := Ideal) x w (ix2 p q) = rowDot x w p q := by
  rw [val_main_v6_apply]
  unfold rowDot
  refine Finset.sum_congr rfl fun k _ => ?_
  have el : lidx_main_v6 (ix2 p q) k = ix2 p k :=
    funext fun a => Fin.ext (by match a with | ⟨0, _⟩ => rfl | ⟨1, _⟩ => rfl)
  have er : ridx_main_v6 (ix2 p q) k = ix2 q k :=
    funext fun a => Fin.ext (by match a with | ⟨0, _⟩ => rfl | ⟨1, _⟩ => rfl)
  rw [el, er]

/-- The distance stage at `(p, q)`. -/
theorem distance_apply (p : Fin 16384) (q : Fin 4096) :
    val_main_v15 (F := Ideal) x w (ix2 p q) = dist (sumSq x p) (sumSq w q) (rowDot x w p q) := by
  rw [val_main_v15_apply, val_main_v14_apply, val_main_v13_apply, val_main_v12_apply, val_main_v11_apply,
    val_main_v10_apply, val_main_v9_apply, rowNorms_apply, colNorms_apply, products_apply]
  rfl

/-- The last stage at `(p, q)` is the specification's entry. -/
theorem result_apply (p : Fin 16384) (q : Fin 4096) : val_main_v28 (F := Ideal) x w (ix2 p q) = entry x w p q := by
  rw [val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply, distance_apply]
  exact gelu_cube_left _

/-- The reference's result array is `G` of its two arguments. -/
theorem result_eq : val_main_v28 (F := Ideal) x w = G x w := by
  funext i
  obtain ⟨p, q, rfl⟩ : ∃ (p : Fin 16384) (q : Fin 4096), i = ix2 p q := ⟨i 0, i 1, eq_ix2 i⟩
  exact result_apply x w p q

end Cert.ReferenceIdeal.RefValue

end
-- ==== Proof.lean ====
/-
  Both programs compute, for `x : 16384 × 64` and `w : 4096 × 64`, the array whose entry `(b, t)` is the tanh form of GELU of
  the Euclidean distance between row `b` of `x` and row `t` of `w`, the distance taken as
  `√(max (‖x_b‖² + ‖w_t‖² − 2·⟨x_b, w_t⟩) 0)` (Proof/GeluDistance.lean states this function, `G`).

  The kernel forms the two families of squared norms in front of the call, rounds `x` and `w` to a narrower float format —
  the identity on the extended reals — and tiles the output `8 × 4`: each grid point multiplies a `2048 × 64` block of `x` with
  a `1024 × 64` block of `w`, contracting the feature axis of both, and finishes entry by entry. The reference does the same
  with one whole product. On the extended reals the two agree operation by operation, and literal by literal; the only
  regrouping is the cube of the distance, `d·(d·d)` in the kernel against `(d·d)·d` in the reference, equal because
  multiplication is commutative. No finiteness of the inputs is used.

  Proof/BodyValue.lean reads the kernel body's stored value at an entry; Proof/RegionArrays.lean the arrays its windows
  read; Proof/BlockValue.lean goes from the blocks to the whole output array; Proof/ReferenceValue.lean reads the
  reference's result. The three frames are the generated ones (the reference's is its generated run with the result
  dropped), and the kernel's idealization rewrote nothing, so there is nothing to preserve.
-/
import proofs.«150686_j34325378630130_2_alg».proof.Defs
import proofs.«150686_j34325378630130_2_alg».proof.Proof.Gen.Kernel
import proofs.«150686_j34325378630130_2_alg».proof.Proof.Gen.Kernel.Skeleton
import proofs.«150686_j34325378630130_2_alg».proof.Proof.Gen.Kernel.Launch
import proofs.«150686_j34325378630130_2_alg».proof.Proof.Gen.Kernel.Points
import proofs.«150686_j34325378630130_2_alg».proof.Proof.Gen.Kernel.Frame
import proofs.«150686_j34325378630130_2_alg».proof.Proof.Gen.KernelIdeal
import proofs.«150686_j34325378630130_2_alg».proof.Proof.Gen.KernelIdeal.Skeleton
import proofs.«150686_j34325378630130_2_alg».proof.Proof.Gen.KernelIdeal.Launch
import proofs.«150686_j34325378630130_2_alg».proof.Proof.Gen.KernelIdeal.Points
import proofs.«150686_j34325378630130_2_alg».proof.Proof.Gen.KernelIdeal.Frame
import proofs.«150686_j34325378630130_2_alg».proof.Proof.Gen.ReferenceIdeal
import proofs.«150686_j34325378630130_2_alg».proof.Proof.Gen.Pre_finite_inputs
import proofs.«150686_j34325378630130_2_alg».proof.Proof.Gen.KernelIdeal.Value
import proofs.«150686_j34325378630130_2_alg».proof.Proof.Gen.ReferenceIdeal.Run
import proofs.«150686_j34325378630130_2_alg».proof.Proof.Gen.ReferenceIdeal.Read
import proofs.«150686_j34325378630130_2_alg».proof.Proof.BlockValue
import proofs.«150686_j34325378630130_2_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on `x` and `w`, both programs end with the result array at
    `G` of `x` and `w`: the kernel block by block (`BlockValue.run`), the reference by its run read one operation at a time
    (`RefValue.result_eq`). -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
